-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : IVec S512x512 32) (main_arg1 : FVec F S512x512 .f32) : IVec S_ 1 :=
  let main_v0 : FVec F S512x512 .f32 := Host.absf main_arg1
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S1 : Shape := ⟨1, ![1]⟩
abbrev S128x512 : Shape := ⟨2, ![128, 512]⟩
abbrev S128 : Shape := ⟨1, ![128]⟩
abbrev S128x1 : Shape := ⟨2, ![128, 1]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .i32⟩
  | .hbm, ⟨1, _⟩ => ⟨S512x512, .f32⟩
  | .hbm, ⟨2, _⟩ => ⟨S1, .f32⟩
  | .local _ .vmem, ⟨0, _⟩ => ⟨S128x512, .i32⟩
  | .local _ .vmem, ⟨1, _⟩ => ⟨S128x512, .i32⟩
  | .local _ .vmem, ⟨2, _⟩ => ⟨S128x512, .f32⟩
  | .local _ .vmem, ⟨3, _⟩ => ⟨S128x512, .f32⟩
  | .local _ .vmem, ⟨4, _⟩ => ⟨S1, .f32⟩
  | .local _ .vmem, ⟨5, _⟩ => ⟨S1, .f32⟩
  | _, _ => ⟨S512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v31 : BitVec 1 := Scalar.cmpi .eq arg0 c3_i32
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S128x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1_S1_0 : ∀ a, (![0] : Fin 1 → Nat) a + S1.size a ≤ S1.size a
  h_S1 : 0 < S1.numel
  shapeCasts_S1_S1 : S1.ShapeCasts S1
  inb_S128x512_S128x512_0_0 : ∀ a, (![0, 0] : Fin 2 → Nat) a + S128x512.size a ≤ S128x512.size a
  h_S128x512 : 0 < S128x512.numel
  reduces_S128x512_S128 : S128x512.Reduces [1] S128
  shapeCasts_S128_S128x1 : S128.ShapeCasts S128x1
  reduces_S128x1_S1 : S128x1.Reduces [0] S1
  shapeCasts_S1_S1x1 : S1.ShapeCasts S1x1
  shapeCasts_S1x1_S1 : S1x1.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .i32 = 32 ∨ (Rect.block (s := S512x512) S128x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S_ : Shape := ⟨0, ![]⟩
abbrev S512x1x512 : Shape := ⟨3, ![512, 1, 512]⟩
abbrev S512x512x1 : Shape := ⟨3, ![512, 512, 1]⟩
abbrev S512x512x512 : Shape := ⟨3, ![512, 512, 512]⟩
abbrev S512 : Shape := ⟨1, ![512]⟩
abbrev S1 : Shape := ⟨1, ![1]⟩

abbrev nBuf : Space → Nat
  | .hbm => 31
  | .vmem => 0
  | .smem => 0
  | _ => 0

abbrev bufTy : (tb : Table) → Fin (tcTables nBuf tb) → BufTy
  | .hbm, ⟨0, _⟩ => ⟨S512x512, .i32⟩
  | .hbm, ⟨1, _⟩ => ⟨S512x512, .f32⟩
  | .hbm, ⟨2, _⟩ => ⟨S_, .i32⟩
  | .hbm, ⟨3, _⟩ => ⟨S512x512, .i32⟩
  | .hbm, ⟨4, _⟩ => ⟨S512x512, .i1⟩
  | .hbm, ⟨5, _⟩ => ⟨S_, .i32⟩
  | .hbm, ⟨6, _⟩ => ⟨S512x512, .i32⟩
  | .hbm, ⟨7, _⟩ => ⟨S512x512, .i1⟩
  | .hbm, ⟨8, _⟩ => ⟨S512x1x512, .f32⟩
  | .hbm, ⟨9, _⟩ => ⟨S512x512x1, .f32⟩
  | .hbm, ⟨10, _⟩ => ⟨S512x512x512, .f32⟩
  | .hbm, ⟨11, _⟩ => ⟨S512x512x512, .f32⟩
  | .hbm, ⟨12, _⟩ => ⟨S512x512x512, .f32⟩
  | .hbm, ⟨13, _⟩ => ⟨S512x512x1, .i1⟩
  | .hbm, ⟨14, _⟩ => ⟨S512x1x512, .i1⟩
  | .hbm, ⟨15, _⟩ => ⟨S512x512x512, .i1⟩
  | .hbm, ⟨16, _⟩ => ⟨S512x512x512, .i1⟩
  | .hbm, ⟨17, _⟩ => ⟨S512x512x512, .i1⟩
  | .hbm, ⟨18, _⟩ => ⟨S512x512x512, .f32⟩
  | .hbm, ⟨19, _⟩ => ⟨S_, .f32⟩
  | .hbm, ⟨20, _⟩ => ⟨S_, .f32⟩
  | .hbm, ⟨21, _⟩ => ⟨S512x512x512, .f32⟩
  | .hbm, ⟨22, _⟩ => ⟨S512x512x512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | _, _ => ⟨S512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S512_d1_2 : S512x512x512.ReducesTo [1, 2] S512
  h_S_ : 0 < S_.numel
  reducesTo_S512_S_d0 : S512.ReducesTo [0] S_
  shapeCasts_S_S1 : S_.ShapeCasts S1

variable [Facts₀]

class Facts : Prop extends Facts₀ where

variable [Facts]
-- ==== Proof.RowLaw.lean ====
/-
  The mathematics of one row, and of the sum over the rows, stated over abstract finite index types on the extended reals.

  One row. For real numbers y and two 0/1 masks a, b over the same finite index type, the masked double sum
      ∑ p, ∑ n, [a p ∧ b n] · exp (y n - y p)
  is the product of the two masked single sums
      (∑ p, [a p] · exp (0 - y p)) · (∑ n, [b n] · exp (y n)),
  because exp (y n - y p) = exp (0 - y p) · exp (y n) for reals and a product of two finite sums of reals is the double
  sum of the products. Every term is a real number, so the identity, proved in ℝ, holds between the extended reals the
  two programs compute (a finite sum of real coercions is the coercion of the sum).

  The rows. A sum over 4 · 128 rows is the sum over 4 tiles of the sums over the 128 rows of a tile; this needs only that
  addition on the extended reals is commutative and associative.
-/
import Idealize.ShloMosaic.PureOps.Ideal

noncomputable section

namespace Cert.RowLaw

open Idealize.ShloMosaic

/-- A finite sum of real numbers read in the extended reals is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A choice between a real number and zero is a real number. -/
theorem select_coe (c : BitVec 1) (r : ℝ) :
    Scalar.select c (r : EReal) (0 : EReal) = ((if c = 1 then r else 0 : ℝ) : EReal) := by
  unfold Scalar.select
  split_ifs <;> simp

/-- The conjunction of two one-bit masks is set exactly when both are. -/
theorem andi_one (c d : BitVec 1) : IntOp.andi c d = 1 ↔ c = 1 ∧ d = 1 := by
  revert c d; decide

/-- The row law over the reals: the masked double sum of exp (y n - y p) is the product of the masked sums. -/
theorem real_law {ι : Type*} [Fintype ι] (a b : ι → BitVec 1) (y : ι → ℝ) :
    (∑ p, ∑ n, if IntOp.andi (a p) (b n) = 1 then Real.exp (y n - y p) else 0)
      = (∑ p, if a p = 1 then Real.exp (0 - y p) else 0) * (∑ n, if b n = 1 then Real.exp (y n) else 0) := by
  rw [Finset.sum_mul_sum]
  refine Finset.sum_congr rfl fun p _ => Finset.sum_congr rfl fun n _ => ?_
  have h : IntOp.andi (a p) (b n) = 1 ↔ a p = 1 ∧ b n = 1 := andi_one _ _
  by_cases ha : a p = 1
  · by_cases hb : b n = 1
    · rw [if_pos (h.mpr ⟨ha, hb⟩), if_pos ha, if_pos hb, ← Real.exp_add]
      congr 1
      ring
    · rw [if_neg (fun hh => hb (h.mp hh).2), if_neg hb, mul_zero]
  · rw [if_neg (fun hh => ha (h.mp hh).1), if_neg ha, zero_mul]

/-- The row law between the extended reals the two programs compute, for a row of real numbers. -/
theorem row_law {ι : Type*} [Fintype ι] (a b : ι → BitVec 1) (y : ι → ℝ) :
    (∑ p, ∑ n, Scalar.select (IntOp.andi (a p) (b n)) (Ideal.exp ((y n : EReal) - (y p : EReal))) (0 : EReal))
      = (∑ p, Scalar.select (a p) (Ideal.exp ((0 : EReal) - (y p : EReal))) (0 : EReal))
        * (∑ n, Scalar.select (b n) (Ideal.exp (y n : EReal)) (0 : EReal)) := by
  have e1 : ∀ p n, Scalar.select (IntOp.andi (a p) (b n)) (Ideal.exp ((y n : EReal) - (y p : EReal))) (0 : EReal)
      = ((if IntOp.andi (a p) (b n) = 1 then Real.exp (y n - y p) else 0 : ℝ) : EReal) := fun p n => by
    rw [← EReal.coe_sub, Ideal.exp_coe, select_coe]
  have e2 : ∀ p, Scalar.select (a p) (Ideal.exp ((0 : EReal) - (y p : EReal))) (0 : EReal)
      = ((if a p = 1 then Real.exp (0 - y p) else 0 : ℝ) : EReal) := fun p => by
    rw [show (0 : EReal) - (y p : EReal) = ((0 - y p : ℝ) : EReal) from by rw [EReal.coe_sub, EReal.coe_zero],
      Ideal.exp_coe, select_coe]
  have e3 : ∀ n, Scalar.select (b n) (Ideal.exp (y n : EReal)) (0 : EReal)
      = ((if b n = 1 then Real.exp (y n) else 0 : ℝ) : EReal) := fun n => by
    rw [Ideal.exp_coe, select_coe]
  simp only [e1, e2, e3, coe_sum, ← EReal.coe_mul, real_law]

/-- A sum over the 4 · 128 rows is the sum over the 4 tiles of the sums over a tile's 128 rows; row r of tile t is
    row 128 · t + r. -/
theorem sum_tiles {M : Type*} [AddCommMonoid M] (f : Fin 512 → M) :
    ∑ b : Fin 512, f b = ∑ t : Fin 4, ∑ r : Fin 128, f ⟨128 * t.val + r.val, by have := t.isLt; have := r.isLt; omega⟩ := by
  rw [← Fintype.sum_prod_type' (f := fun (t : Fin 4) (r : Fin 128) => f ⟨128 * t.val + r.val, by have := t.isLt; have := r.isLt; omega⟩)]
  refine (Fintype.sum_equiv (finProdFinEquiv (m := 4) (n := 128)) _ _ fun x => ?_).symm
  congr 1
  apply Fin.ext
  show 128 * x.1.val + x.2.val = x.2.val + 128 * x.1.val
  omega

end Cert.RowLaw

end
-- ==== Proof.Spec.lean ====
/-
  The result as one function of the two argument arrays, in the two arrangements the programs compute it, and the
  law that joins them.

  For a row of labels lab and scores y (512 columns):
    posSum = ∑ p, [lab p = 1] · exp (0 - y p)         negSum = ∑ n, [lab n = 0] · exp (y n)
    pairSum = ∑ p, ∑ n, [lab p = 1 ∧ lab n = 0] · exp (y n - y p)
    the row's loss:  log1p (posSum · negSum)   in one arrangement,   log1p (0 + pairSum)   in the other.
  When the scores are real numbers the two losses are the same extended real (the row law).

  The result (one element): the sum of the 512 rows' losses divided by 512. One arrangement sums the rows tile by tile
  (4 tiles of 128 rows, the tiles' sums added in order onto zero), the other sums all 512 rows at once onto zero; on the
  extended reals both are the same sum, since addition there is commutative and associative and zero is neutral.
-/
import proofs.«101780_j49220325212213_1_alg».proof.Proof.RowLaw
import Idealize.ShloMosaic.PureOps.Ideal.Laws
import Idealize.ShloMosaic.Lib.ValueIdx

noncomputable section

namespace Cert.Spec

open Idealize.ShloMosaic Idealize.ShloMosaic.ValueIdx

/-- The float zero both programs write, as an extended real. -/
abbrev z : EReal := Ideal.ofBits .f32 0x00000000#32

/-- The divisor 512.0 both programs write, as an extended real. -/
abbrev d512 : EReal := Ideal.ofBits .f32 0x44000000#32

theorem z_eq : z = 0 := Ideal.ofBits_zero_f32

/-- A row's sum of exp (0 - y p) over the columns labelled 1. -/
def posSum (lab : Fin 512 → BitVec 32) (y : Fin 512 → EReal) : EReal :=
  ∑ k : Fin 512, Scalar.select (IntOp.cmpi .eq (lab k) 1#32) (Ideal.exp (z - y k)) z

/-- A row's sum of exp (y n) over the columns labelled 0. -/
def negSum (lab : Fin 512 → BitVec 32) (y : Fin 512 → EReal) : EReal :=
  ∑ k : Fin 512, Scalar.select (IntOp.cmpi .eq (lab k) 0#32) (Ideal.exp (y k)) z

/-- A row's sum of exp (y n - y p) over the pairs (p labelled 1, n labelled 0). -/
def pairSum (lab : Fin 512 → BitVec 32) (y : Fin 512 → EReal) : EReal :=
  ∑ p : Fin 512, ∑ n : Fin 512,
    Scalar.select (IntOp.andi (IntOp.cmpi .eq (lab p) 1#32) (IntOp.cmpi .eq (lab n) 0#32)) (Ideal.exp (y n - y p)) z

/-- A row's loss from the two single sums. -/
def lossProd (lab : Fin 512 → BitVec 32) (y : Fin 512 → EReal) : EReal := Ideal.log1p (posSum lab y * negSum lab y)

/-- A row's loss from the double sum, taken onto zero. -/
def lossPair (lab : Fin 512 → BitVec 32) (y : Fin 512 → EReal) : EReal := Ideal.log1p (z + pairSum lab y)

/-- For a row of real scores the two losses agree: the double sum is the product of the single sums. -/
theorem lossPair_eq_lossProd (lab : Fin 512 → BitVec 32) (y : Fin 512 → EReal) (hy : ∀ k, ∃ r : ℝ, y k = (r : EReal)) :
    lossPair lab y = lossProd lab y := by
  choose r hr using hy
  obtain rfl : y = fun k => (r k : EReal) := funext hr
  unfold lossPair lossProd pairSum posSum negSum
  rw [z_eq, zero_add]
  exact congrArg Ideal.log1p
    (RowLaw.row_law (fun p => IntOp.cmpi .eq (lab p) 1#32) (fun n => IntOp.cmpi .eq (lab n) 0#32) r)

/-- Row b of a 512 × 512 array, as a function of the column. -/
abbrev rowOf {α : Type} (X : (⟨2, ![512, 512]⟩ : Shape).Idx → α) (b : Fin 512) : Fin 512 → α := fun k => X (ix2 b k)

/-- Row r of tile t is row 128 · t + r of the array. -/
abbrev tileRow (t : Fin 4) (r : Fin 128) : Fin 512 := ⟨128 * t.val + r.val, by have := t.isLt; have := r.isLt; omega⟩

/-- The sum of a tile's 128 row losses (from the single sums). -/
def tileSum (X0 : (⟨2, ![512, 512]⟩ : Shape).Idx → BitVec 32) (X1 : (⟨2, ![512, 512]⟩ : Shape).Idx → EReal) (t : Fin 4) : EReal :=
  ∑ r : Fin 128, lossProd (rowOf X0 (tileRow t r)) (rowOf X1 (tileRow t r))

/-- The result, tile by tile: the four tiles' sums added in order onto zero, divided by 512. -/
def resultTiled (X0 : (⟨2, ![512, 512]⟩ : Shape).Idx → BitVec 32) (X1 : (⟨2, ![512, 512]⟩ : Shape).Idx → EReal) :
    (⟨1, ![1]⟩ : Shape).Idx → EReal :=
  fun _ => Ideal.div ((((z + tileSum X0 X1 0) + tileSum X0 X1 1) + tileSum X0 X1 2) + tileSum X0 X1 3) d512

/-- The result, all rows at once: the 512 row losses (from the double sums) summed onto zero, divided by 512. -/
def resultWhole (X0 : (⟨2, ![512, 512]⟩ : Shape).Idx → BitVec 32) (X1 : (⟨2, ![512, 512]⟩ : Shape).Idx → EReal) :
    (⟨1, ![1]⟩ : Shape).Idx → EReal :=
  fun _ => Ideal.div (z + ∑ b : Fin 512, lossPair (rowOf X0 b) (rowOf X1 b)) d512

/-- On an array of real scores the two arrangements give the same result. -/
theorem resultWhole_eq_resultTiled (X0 : (⟨2, ![512, 512]⟩ : Shape).Idx → BitVec 32)
    (X1 : (⟨2, ![512, 512]⟩ : Shape).Idx → EReal) (hX : ∀ i, ∃ r : ℝ, X1 i = (r : EReal)) :
    resultWhole X0 X1 = resultTiled X0 X1 := by
  funext _
  unfold resultWhole resultTiled
  refine congrArg (fun s => Ideal.div s d512) ?_
  have e : ∀ b : Fin 512, lossPair (rowOf X0 b) (rowOf X1 b) = lossProd (rowOf X0 b) (rowOf X1 b) :=
    fun b => lossPair_eq_lossProd _ _ fun k => hX _
  simp only [e]
  rw [RowLaw.sum_tiles, Fin.sum_univ_four]
  unfold tileSum tileRow
  simp only [add_assoc]

end Cert.Spec

end
-- ==== Proof.Pieces.lean ====
/-
  What one grid point's body leaves behind, as values. The body keeps a one-element running total in a scratch buffer:
  at the first point it stores zero there, then (at every point) reads the total back, adds the point's partial sum and
  stores the new total; at the last point it reads the total once more and stores total / 512 into the output block.
  Each buffer's final contents is the canonical reading of the last covering store, whose payload is a pure function of
  the point's two input blocks and of the total the point found:
    first point   : new total = pay2 (labels, scores, pay1)        (pay1 = the stored zero)
    middle points : new total = pay2 (labels, scores, old total)
    last point    : new total = pay2 (labels, scores, old total),  output = pay3 (new total).
  The statements hold for any float instance.
-/
import proofs.«101780_j49220325212213_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- A middle point: the scratch ends at the old total plus the point's partial sum. -/
theorem sout_B (c : Dev nD) (i : grid0.Coords) (a1 : Memref sig .tc .vmem S128x512 .i32) (h1 : a1.IsWhole)
    (a2 : Memref sig .tc .vmem S128x512 .f32) (h2 : a2.IsWhole) (a3 : Memref sig .tc .vmem S1 .f32) (h3 : a3.IsWhole)
    (a4 : Memref sig .tc .vmem S1 .f32) (h4 : a4.IsWhole) (hc0 : ¬cond0_0 i) (hc1 : ¬cond0_1 i)
    (x0 : Vec F S128x512 .i32) (x1 : Vec F S128x512 .f32) (xs0 : Vec F S1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz1]
  simp only [View.readAt_eq_ld, h1.read_unread, h2.read_unread, h4.read_unread, View.ld_unit_zero (S := S128x512) hz2,
    View.ld_unit_zero (S := S1) hz1]

/-- The first point: the scratch ends at zero plus the point's partial sum. -/
theorem sout_A (c : Dev nD) (i : grid0.Coords) (a1 : Memref sig .tc .vmem S128x512 .i32) (h1 : a1.IsWhole)
    (a2 : Memref sig .tc .vmem S128x512 .f32) (h2 : a2.IsWhole) (a3 : Memref sig .tc .vmem S1 .f32) (h3 : a3.IsWhole)
    (a4 : Memref sig .tc .vmem S1 .f32) (h4 : a4.IsWhole) (hc0 : cond0_0 i) (hc1 : ¬cond0_1 i)
    (x0 : Vec F S128x512 .i32) (x1 : Vec F S128x512 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1) hz1, View.readCov_unit_zero (S := S1) _ hz1]
  simp only [View.readAt_eq_ld, h1.read_unread, h2.read_unread, View.ld_unit_zero (S := S128x512) hz2]

/-- The last point: the scratch ends at the old total plus the point's partial sum, -/
theorem sout_C (c : Dev nD) (i : grid0.Coords) (a1 : Memref sig .tc .vmem S128x512 .i32) (h1 : a1.IsWhole)
    (a2 : Memref sig .tc .vmem S128x512 .f32) (h2 : a2.IsWhole) (a3 : Memref sig .tc .vmem S1 .f32) (h3 : a3.IsWhole)
    (a4 : Memref sig .tc .vmem S1 .f32) (h4 : a4.IsWhole) (hc0 : ¬cond0_0 i) (hc1 : cond0_1 i)
    (x0 : Vec F S128x512 .i32) (x1 : Vec F S128x512 .f32) (xs0 : Vec F S1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz1]
  simp only [View.readAt_eq_ld, h1.read_unread, h2.read_unread, h4.read_unread, View.ld_unit_zero (S := S128x512) hz2,
    View.ld_unit_zero (S := S1) hz1]

/-- and the output block at that new total divided by 512. -/
theorem out_C (c : Dev nD) (i : grid0.Coords) (a1 : Memref sig .tc .vmem S128x512 .i32) (h1 : a1.IsWhole)
    (a2 : Memref sig .tc .vmem S128x512 .f32) (h2 : a2.IsWhole) (a3 : Memref sig .tc .vmem S1 .f32) (h3 : a3.IsWhole)
    (a4 : Memref sig .tc .vmem S1 .f32) (h4 : a4.IsWhole) (hc0 : ¬cond0_0 i) (hc1 : cond0_1 i)
    (x0 : Vec F S128x512 .i32) (x1 : Vec F S128x512 .f32) (xs0 : Vec F S1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz1, View.readCov_unit_zero (S := S1) _ hz1]
  simp only [View.readAt_eq_ld, h1.read_unread, h2.read_unread, h4.read_unread, View.ld_unit_zero (S := S128x512) hz2,
    View.ld_unit_zero (S := S1) hz1]

end Cert.KernelIdeal.Pieces

end
-- ==== Proof.Payload.lean ====
/-
  The body's arithmetic at the ideal values, read at its one index. With labels x0 and scores x1 the 128 × 512 blocks
  of a grid point and acc the running total the point found,
      pay2 x0 x1 acc = acc + ∑ r < 128, log1p (posSum (row r of x0, x1) · negSum (row r of x0, x1)),
  the lane sums over the 512 columns read as finite sums, the keep-dims column [128] → [128, 1] read at (r, 0) as the
  vector at r, and the sum over the 128 rows of that column read as a finite sum; the casts [1] → [1, 1] → [1] and
  [1] → [1] change nothing. pay1 is the zero the first point stores, and pay3 divides the total by 512.
-/
import proofs.«101780_j49220325212213_1_alg».proof.Proof.Gen.KernelIdeal.Skeleton
import proofs.«101780_j49220325212213_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Spec

/-- A one-element vector has one index. -/
theorem idx1_eq (j : S1.Idx) : j = ix1 (0 : Fin 1) := by
  funext a
  match a with
  | ⟨0, _⟩ =>
    apply Fin.ext
    have h : (j 0).val < 1 := (j 0).isLt
    show (j 0).val = 0
    omega

/-- The lane sum of a 128 × 512 block, at row r, is the sum over the 512 columns. -/
theorem laneSum_apply (v : FVec Ideal S128x512 .f32) (h : S128x512.Reduces [1] S128) (hφ : FKind.Formats .f32)
    (hacc : (0x00000000#32 : BitVec 32) = FKind.add.neutral .f32 hφ) (r : Fin 128) :
    multiReduction .add [1] S128 v 0x00000000#32 h hφ hacc (ix1 r) = ∑ k : Fin 512, v (ix2 r k) :=
  (Ideal.multiReduction_add_single v _ h hφ hacc (ix1 r)).trans
    (Finset.sum_congr rfl fun k _ => congrArg v (funext fun a => Fin.ext (by
      match a with
      | ⟨0, _⟩ => rfl
      | ⟨1, _⟩ => rfl)))

/-- The sum over the rows of a 128 × 1 column, at its one index, is the sum over the 128 rows. -/
theorem colSum_apply (v : FVec Ideal S128x1 .f32) (h : S128x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ r : Fin 128, v (ix2 r (0 : Fin 1)) :=
  (Ideal.multiReduction_add_single v _ h hφ hacc (ix1 (0 : Fin 1))).trans
    (Finset.sum_congr rfl fun k _ => congrArg v (funext fun a => Fin.ext (by
      match a with
      | ⟨0, _⟩ => rfl
      | ⟨1, _⟩ => rfl)))

/-- A 128-vector kept as a 128 × 1 column reads, at (r, 0), the vector at r. -/
theorem column_apply {α : Type} (v : S128.Idx → α) (h : S128.ShapeCasts S128x1) (r : Fin 128) :
    shapeCast S128x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- The running total after a point: the total it found plus the sum of the tile's 128 row losses. -/
theorem pay2_apply (x0 : Vec Ideal S128x512 .i32) (x1 : Vec Ideal S128x512 .f32) (acc : Vec Ideal S1 .f32) (j : S1.Idx) :
    k0_pay2 (F := Ideal) x0 x1 acc j
      = acc j + ∑ r : Fin 128, lossProd (fun k => x0 (ix2 r k)) (fun k => x1 (ix2 r k)) := by
  obtain rfl := idx1_eq j
  unfold k0_pay2
  dsimp only
  refine (congrFun (shapeCast_self _ _) _).trans ?_
  refine (addf_apply _ _ _).trans (congrArg (acc (ix1 (0 : Fin 1)) + ·) ?_)
  refine (congrFun (shapeCast_shapeCast _ _ _) _).trans ?_
  refine (colSum_apply _ _ _ _).trans (Finset.sum_congr rfl fun r _ => ?_)
  unfold lossProd posSum negSum
  show Ideal.log1p (_ * _) = Ideal.log1p (_ * _)
  refine congrArg Ideal.log1p (congrArg₂ (· * ·) ?_ ?_)
  · refine (column_apply _ _ r).trans ((laneSum_apply _ _ _ _ r).trans ?_)
    rfl
  · refine (column_apply _ _ r).trans ((laneSum_apply _ _ _ _ r).trans ?_)
    rfl

/-- The zero the first point stores. -/
theorem pay1_apply (j : S1.Idx) : k0_pay1 (F := Ideal) j = z := by
  unfold k0_pay1
  exact congrFun (shapeCast_self _ _) _

/-- The output: the total divided by 512. -/
theorem pay3_apply (tot : Vec Ideal S1 .f32) (j : S1.Idx) : k0_pay3 (F := Ideal) tot j = Ideal.div (tot j) d512 := by
  unfold k0_pay3
  rfl

end Cert.KernelIdeal.Payload

end
-- ==== Proof.KernelValue.lean ====
/-
  The kernel's result array, read off its run. The grid has four points; point t stages rows 128·t … 128·t + 127 of
  both arguments. The scratch total after point n is pay2 of point n's blocks over the total after point n - 1 (over the
  stored zero at point 0) — by induction on the point, from the three cases' found pieces —, and the last point stores
  total / 512 into the output block, which is the whole one-element result array and is written back there only. So,
  at the ideal values, the result array ends at the tiled form of the specification: the four tiles' sums of row losses
  added in order onto zero, divided by 512.
-/
import proofs.«101780_j49220325212213_1_alg».proof.Proof.Gen.KernelIdeal.Value
import proofs.«101780_j49220325212213_1_alg».proof.Proof.Pieces
import proofs.«101780_j49220325212213_1_alg».proof.Proof.Payload

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Cert.KernelIdeal.Payload
open Idealize.ShloMosaic.ValueIdx Cert.Spec

section AnyValues

variable {F : FTy → Type} [FloatOps F]
variable (m : (ℓ : Loc nD τ sig) → Buf (Elt F) ℓ) (ρ : Dev nD → PrngReg)

/-- The running total after point n: pay2 of the point's blocks over the total before it. -/
def total (c : Dev nD) : (n : ℕ) → n < cfg0.N → Vec F S1 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (total c n (Nat.lt_of_succ_lt h))

/-- What the scratch holds after point n is that running total: by induction on the point. -/
theorem scratch_eq (c : Dev nD) : ∀ (n : ℕ) (h : n < cfg0.N), (outsAt0 m c n h).2 = total m c n h
  | 0, h => by
    have h0 : (⟨0, h⟩ : Fin cfg0.N).val % 4 = 0 := rfl
    have h1 : ¬(⟨0, h⟩ : Fin cfg0.N).val % 4 = 3 := by dsimp only; omega
    rw [outsAt0_A m c ⟨0, h⟩ h0 h1]
    dsimp only
    refine (sout_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) _ _ (iblk m c 0 ⟨0, h⟩) (iblk m c 1 ⟨0, h⟩)).trans ?_
    rfl
  | n + 1, h => by
    have hN : cfg0.N = 4 := N_0
    have h0 : ¬(⟨n + 1, h⟩ : Fin cfg0.N).val % 4 = 0 := by dsimp only; omega
    have ih := scratch_eq c n (Nat.lt_of_succ_lt h)
    by_cases h1 : (⟨n + 1, h⟩ : Fin cfg0.N).val % 4 = 3
    · rw [outsAt0_C m c ⟨n + 1, h⟩ h0 h1]
      dsimp only
      refine (sout_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩)
        (iblk m c 1 ⟨n + 1, h⟩) _).trans ?_
      exact congrArg (k0_pay2 (iblk m c 0 ⟨n + 1, h⟩) (iblk m c 1 ⟨n + 1, h⟩)) ih
    · rw [outsAt0_B m c ⟨n + 1, h⟩ h0 h1]
      dsimp only
      refine (sout_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩)
        (iblk m c 1 ⟨n + 1, h⟩) _).trans ?_
      exact congrArg (k0_pay2 (iblk m c 0 ⟨n + 1, h⟩) (iblk m c 1 ⟨n + 1, h⟩)) ih

/-- The result: the total after the last point, divided by 512, as contents of the result array. -/
abbrev result (c : Dev nD) : Buf (Elt F) ((c : Thread nD τ).loc main_v0) :=
  k0_pay3 (total m c 3 (by rw [show cfg0.N = 4 from N_0]; decide))

/-- What the last point leaves in the output block is that result. -/
theorem out_last (c : Dev nD) : (outsAt0 m c t0_3.val t0_3.isLt).1 = result m c := by
  have h0 : ¬t0_3.val % 4 = 0 := by decide
  have h1 : t0_3.val % 4 = 3 := by decide
  rw [outsAt0_C m c t0_3 h0 h1]
  dsimp only
  refine (out_C c (grid0.coords t0_3) (ms0_0 t0_3) (hs0_0 t0_3) (ms0_1 t0_3) (hs0_1 t0_3) (ms0_2 t0_3) (hs0_2 t0_3) scM0_0
    (Memref.isWhole_whole _) _ _ (iblk m c 0 t0_3) (iblk m c 1 t0_3) _).trans ?_
  refine congrArg k0_pay3 ?_
  exact congrArg (k0_pay2 (iblk m c 0 t0_3) (iblk m c 1 t0_3)) (scratch_eq m c 2 _)

/-- The one write-back, at the last point, writes the result: the block is the whole one-element array. -/
theorem flushed_eq (c : Dev nD) (t : Fin cfg0.N) (hf : (cfg0.win 2).flush t = true) :
    (dats m 0 c).flushed 2 t = ((cfg0.win 2).blk t).view.read (Elt F) (result m c) := by
  have hN : cfg0.N = 4 := N_0
  have h3 : t.val = 3 := by have := (flush0_2 t).mp hf; have := t.isLt; omega
  obtain rfl : t = t0_3 := Fin.ext h3
  rw [Cert.KernelIdeal.Value.flushed2, out_last]
  have hz' : (fun a => win0_2.index t0_3 a * main_v0.ty.shape.size a) = fun _ => 0 :=
    funext fun a => by fin_cases a; decide
  exact (Memref.read_access_unit_zero (Elt F) main_v0 hz' (fun a => by rw [congrFun hz' a]; simp) (result m c)).symm

/-- So the result array ends at the result: the last point's block covers it. -/
theorem final (c : Dev nD) : (dats m 0 c).arrAt 2 cfg0.N = result m c :=
  (dats m 0 c).arrAt_eq_of_cover 2 (result m c) (flushed_eq m c) fun i =>
    ⟨t0_3, (flush0_2 t0_3).mpr rfl, by
      show i ∈ ((View.whole main_v0).slice (win0_2.rect t0_3)).set
      rw [View.set_slice_whole, Rect.mem_set_unit]
      intro a
      have hi : (i 0 : Nat) < 1 := (i 0).isLt
      match a with
      | ⟨0, _⟩ =>
        show win0_2.index t0_3 0 * win0_2.size 0 ≤ (i 0 : Nat)
          ∧ (i 0 : Nat) < win0_2.index t0_3 0 * win0_2.size 0 + win0_2.xsize (grid0.coords t0_3) 0
        rw [show win0_2.index t0_3 0 * win0_2.size 0 = 0 from by decide +kernel,
          show win0_2.xsize (grid0.coords t0_3) 0 = 1 from by decide +kernel]
        omega⟩

/-- The run, read: the result array at the result, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

/-- Where point t's blocks sit in the arrays: block row t, block column 0, of both arguments. -/
theorem idx_facts : ∀ t : Fin cfg0.N, win0_0.index t 0 = t.val ∧ win0_0.index t 1 = 0
      ∧ win0_1.index t 0 = t.val ∧ win0_1.index t 1 = 0 :=
  (by decide +kernel : ∀ t : Fin grid0.N, win0_0.index t 0 = t.val ∧ win0_0.index t 1 = 0
      ∧ win0_1.index t 0 = t.val ∧ win0_1.index t 1 = 0)

/-- Point t's block of the labels at (r, k) is the labels array at (128·t + r, k). -/
theorem labels_apply (c : Dev nD) (t : Fin cfg0.N) (r : Fin 128) (k : Fin 512) (b : Fin 512)
    (hb : b.val = 128 * t.val + r.val) :
    (iblk m c 0 t : Vec F S128x512 .i32) (ix2 r k) = m ((c : Thread nD τ).loc main_arg0) (ix2 b k) := by
  unfold iblk
  rw [View.read_apply]
  show V m c main_arg0 _ = _
  unfold V
  refine congrArg _ (funext fun a => Fin.ext ?_)
  match a with
  | ⟨0, _⟩ => show win0_0.index t 0 * 128 + 1 * r.val = b.val; rw [(idx_facts t).1]; omega
  | ⟨1, _⟩ => show win0_0.index t 1 * 512 + 1 * k.val = k.val; rw [(idx_facts t).2.1]; omega

/-- Point t's block of the scores at (r, k) is the scores array at (128·t + r, k). -/
theorem scores_apply (c : Dev nD) (t : Fin cfg0.N) (r : Fin 128) (k : Fin 512) (b : Fin 512)
    (hb : b.val = 128 * t.val + r.val) :
    (iblk m c 1 t : Vec F S128x512 .f32) (ix2 r k) = m ((c : Thread nD τ).loc main_arg1) (ix2 b k) := by
  unfold iblk
  rw [View.read_apply]
  show V m c main_arg1 _ = _
  unfold V
  refine congrArg _ (funext fun a => Fin.ext ?_)
  match a with
  | ⟨0, _⟩ => show win0_1.index t 0 * 128 + 1 * r.val = b.val; rw [(idx_facts t).2.2.1]; omega
  | ⟨1, _⟩ => show win0_1.index t 1 * 512 + 1 * k.val = k.val; rw [(idx_facts t).2.2.2]; omega

end AnyValues

/-! ## At the ideal values -/

variable (m : (ℓ : Loc nD τ sig) → Buf (Elt Ideal) ℓ)

/-- The sum of the row losses of point t's blocks is the specification's sum over tile t of the arrays. -/
theorem tile_eq (c : Dev nD) (t : Fin cfg0.N) (t' : Fin 4) (ht : t'.val = t.val) :
    (∑ r : Fin 128, lossProd (fun k => (iblk m c 0 t : Vec Ideal S128x512 .i32) (ix2 r k))
        (fun k => (iblk m c 1 t : Vec Ideal S128x512 .f32) (ix2 r k)))
      = tileSum (m ((c : Thread nD τ).loc main_arg0)) (m ((c : Thread nD τ).loc main_arg1)) t' := by
  unfold tileSum
  refine Finset.sum_congr rfl fun r _ => ?_
  refine congrArg₂ lossProd (funext fun k => ?_) (funext fun k => ?_)
  · exact labels_apply m c t r k (tileRow t' r) (by show 128 * t'.val + r.val = _; rw [ht])
  · exact scores_apply m c t r k (tileRow t' r) (by show 128 * t'.val + r.val = _; rw [ht])

/-- At the ideal values the result is the tiled form of the specification, of the two argument arrays. -/
theorem result_eq (c : Dev nD) :
    result m c = resultTiled (m ((c : Thread nD τ).loc main_arg0)) (m ((c : Thread nD τ).loc main_arg1)) := by
  funext j
  unfold resultTiled
  refine (pay3_apply _ j).trans (congrArg (fun s => Ideal.div s d512) ?_)
  simp only [total]
  rw [pay2_apply, pay2_apply, pay2_apply, pay2_apply, pay1_apply]
  refine congrArg₂ (· + ·) (congrArg₂ (· + ·) (congrArg₂ (· + ·) (congrArg₂ (· + ·) rfl ?_) ?_) ?_) ?_
  · exact tile_eq m c t0_0 0 rfl
  · exact tile_eq m c t0_1 1 rfl
  · exact tile_eq m c t0_2 2 rfl
  · exact tile_eq m c t0_3 3 rfl

end Cert.KernelIdeal.KValue

end
-- ==== Proof.RefValue.lean ====
/-
  The reference's result, read one operation at a time, is the whole-array form of the specification. At (b, p, n) the
  512 × 512 × 512 array the reference sums holds [lab_b p = 1 ∧ lab_b n = 0] · exp (y_b n - y_b p) (the two broadcasts of
  the scores along the new axes read row b at columns n and p, the two broadcasts of the label tests likewise); its
  sum over the last two axes, at row b, is zero plus the double sum over (p, n), because the indices that reduce to b
  are exactly the (b, p, n); then log1p, the sum over the 512 rows onto zero, the division by 512, and the reshape of the
  scalar to one element.
-/
import proofs.«101780_j49220325212213_1_alg».proof.Proof.Gen.ReferenceIdeal.Read
import proofs.«101780_j49220325212213_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Spec

/-- A sum over the indices of a vector is the sum over its coordinate. -/
theorem sum_idx1 {M : Type*} [AddCommMonoid M] {n : Nat} (f : (⟨1, ![n]⟩ : Shape).Idx → M) :
    ∑ j, f j = ∑ b : Fin n, f (ix1 b) :=
  Fintype.sum_equiv ⟨fun j => j 0, fun b => ix1 b, fun j => (eq_ix1 j).symm, fun _ => rfl⟩ _ _
    fun j => congrArg f (eq_ix1 j)

/-- Reducing (b, p, n) over the last two axes leaves b; -/
theorem drop_ix3 (h : S512x512x512.ReducesTo [1, 2] S512) (b p n : Fin 512) : h.drop (ix3 b p n) = ix1 b := by
  funext a
  match a with
  | ⟨0, _⟩ => exact Fin.ext rfl

/-- and an index that reduces to b is (b, its second coordinate, its third). -/
theorem eq_ix3_of_drop (h : S512x512x512.ReducesTo [1, 2] S512) (i : S512x512x512.Idx) (b : Fin 512)
    (hi : h.drop i = ix1 b) : i = ix3 b (i 1) (i 2) := by
  have h0 : (i 0).val = b.val := congrArg Fin.val (congrFun hi 0)
  funext a
  match a with
  | ⟨0, _⟩ => exact Fin.ext h0
  | ⟨1, _⟩ => rfl
  | ⟨2, _⟩ => rfl

/-- The pairs (p, n), as the indices (b, p, n). -/
def pairEmb (b : Fin 512) : Fin 512 × Fin 512 ↪ S512x512x512.Idx :=
  ⟨fun pn => ix3 b pn.1 pn.2, fun x y hxy => by
    have h1 := congrFun hxy 1
    have h2 := congrFun hxy 2
    exact Prod.ext h1 h2⟩

/-- So the indices the sum over the last two axes adds up at row b are the (b, p, n). -/
theorem filter_drop (h : S512x512x512.ReducesTo [1, 2] S512) (b : Fin 512) :
    Finset.univ.filter (fun i : S512x512x512.Idx => h.drop i = ix1 b) = Finset.univ.map (pairEmb b) := by
  ext i
  simp only [Finset.mem_filter, Finset.mem_univ, true_and, Finset.mem_map, pairEmb, Function.Embedding.coeFn_mk]
  exact ⟨fun hi => ⟨(i 1, i 2), (eq_ix3_of_drop h i b hi).symm⟩, fun ⟨pn, hpn⟩ => hpn ▸ drop_ix3 h b pn.1 pn.2⟩

/-- The summed array at (b, p, n). -/
theorem v15_apply (x0 : (⟨S512x512, .i32⟩ : BufTy).Contents (Elt Ideal)) (x1 : (⟨S512x512, .f32⟩ : BufTy).Contents (Elt Ideal))
    (b p n : Fin 512) :
    val_main_v15 (F := Ideal) x0 x1 (ix3 b p n)
      = Scalar.select (IntOp.andi (IntOp.cmpi .eq (x0 (ix2 b p)) 1#32) (IntOp.cmpi .eq (x0 (ix2 b n)) 0#32))
          (Ideal.exp (x1 (ix2 b n) - x1 (ix2 b p))) z := by
  have e1 : idx_main_v9 (idx_main_v11 (ix3 b p n)) = ix2 b p :=
    funext fun a => Fin.ext (by match a with | ⟨0, _⟩ => rfl | ⟨1, _⟩ => rfl)
  have e2 : idx_main_v10 (idx_main_v12 (ix3 b p n)) = ix2 b n :=
    funext fun a => Fin.ext (by match a with | ⟨0, _⟩ => rfl | ⟨1, _⟩ => rfl)
  have e3 : idx_main_v4 (idx_main_v6 (ix3 b p n)) = ix2 b n :=
    funext fun a => Fin.ext (by match a with | ⟨0, _⟩ => rfl | ⟨1, _⟩ => rfl)
  have e4 : idx_main_v5 (idx_main_v7 (ix3 b p n)) = ix2 b p :=
    funext fun a => Fin.ext (by match a with | ⟨0, _⟩ => rfl | ⟨1, _⟩ => rfl)
  rw [val_main_v15_apply, val_main_v13_apply, val_main_v11_apply, val_main_v9_apply, val_main_v1_apply, val_main_v0_apply,
    val_main_c_apply, val_main_v12_apply, val_main_v10_apply, val_main_v3_apply, val_main_v2_apply, val_main_c_0_apply,
    val_main_v14_apply, val_main_v8_apply, val_main_v6_apply, val_main_v4_apply, val_main_v7_apply, val_main_v5_apply,
    val_main_call0_v1_apply, val_main_call0_v0_apply, val_main_cst_apply, e1, e2, e3, e4]
  simp only [Ideal.hostUnary_exp_def, Ideal.subf_def, Ideal.ofBits_def]

/-- The sum over the last two axes, at row b: zero plus the double sum over the pairs. -/
theorem v16_apply (x0 : (⟨S512x512, .i32⟩ : BufTy).Contents (Elt Ideal)) (x1 : (⟨S512x512, .f32⟩ : BufTy).Contents (Elt Ideal))
    (b : Fin 512) :
    val_main_v16 (F := Ideal) x0 x1 (ix1 b) = z + pairSum (rowOf x0 b) (rowOf x1 b) := by
  unfold val_main_v16
  simp only [Host.reduceAdd, Ideal.hostReduceAdd_def]
  unfold Ideal.hostReduceAdd
  rw [filter_drop _ b, Finset.sum_map, Fintype.sum_prod_type]
  unfold pairSum
  refine congrArg₂ (· + ·) rfl (Finset.sum_congr rfl fun p _ => Finset.sum_congr rfl fun n _ => ?_)
  exact v15_apply x0 x1 b p n

/-- The scalar before the reshape: the rows' losses summed onto zero, divided by 512. -/
theorem v19_apply (x0 : (⟨S512x512, .i32⟩ : BufTy).Contents (Elt Ideal)) (x1 : (⟨S512x512, .f32⟩ : BufTy).Contents (Elt Ideal))
    (i : S_.Idx) :
    val_main_v19 (F := Ideal) x0 x1 i = Ideal.div (z + ∑ b : Fin 512, lossPair (rowOf x0 b) (rowOf x1 b)) d512 := by
  rw [val_main_v19_apply, val_main_v18_apply, val_main_cst_3_apply, val_main_cst_2_apply]
  simp only [Ideal.hostDivf_def, Ideal.ofBits_def]
  rw [sum_idx1]
  refine congrArg (fun s => Ideal.div (z + s) d512) (Finset.sum_congr rfl fun b _ => ?_)
  rw [val_main_v17_apply, Ideal.hostUnary_log1p_def, v16_apply]
  rfl

/-- The reference's result is the whole-array form of the specification. -/
theorem ref_eq (x0 : (⟨S512x512, .i32⟩ : BufTy).Contents (Elt Ideal)) (x1 : (⟨S512x512, .f32⟩ : BufTy).Contents (Elt Ideal)) :
    val_main_v20 (F := Ideal) x0 x1 = resultWhole x0 x1 := by
  funext j
  unfold val_main_v20 shapeCast resultWhole
  exact v19_apply x0 x1 _

end Cert.ReferenceIdeal.RefValue

end
-- ==== Proof.Finite.lean ====
/-
  The precondition, read back: "all (|scores| < +inf)" being true says every score is a real number. The printed
  predicate is one reduction by "and" of the elementwise test max (x, -x) < +inf over the whole scores array; a reduction
  by "and" that is true was true at every element; and an extended real x with max (x, -x) below +inf is neither +inf
  nor -inf.
-/
import proofs.«101780_j49220325212213_1_alg».proof.Pre_finite_inputs
import proofs.«101780_j49220325212213_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun _ _ => funext fun d => d.elim0⟩

/-- The pattern 0x7F800000 is +inf. -/
theorem inf_eq_top : Ideal.ofBits .f32 0x7F800000#32 = (⊤ : EReal) := by
  simp [Ideal.ofBits, Ideal.ieee]

/-- An extended real whose absolute value is below +inf is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every score is a real number. -/
theorem real_of_pre (x0 : IVec S512x512 32) (x1 : FVec Ideal S512x512 .f32)
    (h : fn (F := Ideal) x0 x1 = fun _ => 1#1) (i : S512x512.Idx) : ∃ r : ℝ, x1 i = (r : EReal) := by
  have e := congrFun h ValueIdx.ix0
  dsimp only [fn] at e
  have hi := Host.reduce_andi_all _ _ _ _ _ e i
  have hc : Ideal.cmp .olt (max (x1 i) (-(x1 i))) (Ideal.ofBits .f32 0x7F800000#32) = 1#1 := hi
  rw [inf_eq_top] at hc
  refine real_of_abs_lt_top (x1 i) ?_
  by_contra hn
  unfold Ideal.cmp at hc
  simp [hn] at hc

end Cert.Finite

end
-- ==== Proof.lean ====
/-
  The claim: the kernel and its reference compute the same one-element result on the extended reals whenever the scores
  are finite.

  Both compute, for 512 rows of 512 labels (0 or 1) and 512 scores, the mean over the rows of
      log1p (∑ over pairs (p labelled 1, n labelled 0) of exp (score n - score p)).
  The reference forms the 512 × 512 pairs of every row and sums them; the kernel uses that the pair sum factors,
      ∑ₚ ∑ₙ [p pos][n neg] exp (yₙ - yₚ) = (∑ₚ [p pos] exp (0 - yₚ)) · (∑ₙ [n neg] exp yₙ),
  takes the two single sums per row, and accumulates the rows' log1p values tile by tile (4 grid points of 128 rows) in a
  scratch total that the last point divides by 512. The factoring is an identity of real numbers (exp of a difference is
  a product of exps, and a product of finite sums is the double sum of products), so it needs the scores to be real:
  that is the precondition. The regrouping of the 512 rows into 4 · 128 needs only that addition on the extended reals
  is commutative and associative.

  Modules: RowLaw (the two laws over abstract index types), Spec (the result as one function of the arrays, in both
  arrangements, and their equality on real scores), Pieces and Payload (what a grid point's body leaves, as values, and
  its arithmetic read at an index), KernelValue (the kernel's result array is the tiled form), RefValue (the reference's
  result is the whole-array form), Finite (the precondition read back as "every score is real").

  The three frames are the generated ones (the reference's is its generated run with the result dropped); the idealized
  kernel is the kernel's own text read at the ideal values, with nothing rewritten, so "preserves" is trivial.
-/
import proofs.«101780_j49220325212213_1_alg».proof.Defs
import proofs.«101780_j49220325212213_1_alg».proof.Proof.Gen.Kernel
import proofs.«101780_j49220325212213_1_alg».proof.Proof.Gen.Kernel.Frame
import proofs.«101780_j49220325212213_1_alg».proof.Proof.Gen.KernelIdeal
import proofs.«101780_j49220325212213_1_alg».proof.Proof.Gen.KernelIdeal.Frame
import proofs.«101780_j49220325212213_1_alg».proof.Proof.Gen.KernelIdeal.Value
import proofs.«101780_j49220325212213_1_alg».proof.Proof.Gen.ReferenceIdeal
import proofs.«101780_j49220325212213_1_alg».proof.Proof.Gen.ReferenceIdeal.Run
import proofs.«101780_j49220325212213_1_alg».proof.Proof.Gen.ReferenceIdeal.Read
import proofs.«101780_j49220325212213_1_alg».proof.Proof.Gen.Pre_finite_inputs
import proofs.«101780_j49220325212213_1_alg».proof.Proof.Spec
import proofs.«101780_j49220325212213_1_alg».proof.Proof.KernelValue
import proofs.«101780_j49220325212213_1_alg».proof.Proof.RefValue
import proofs.«101780_j49220325212213_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the tiled form of the specification, the reference's at the whole-array form, of
    argument arrays that agree; under the precondition the scores are real and the two forms are equal. -/
theorem algebraic : Cert.algebraic_KernelIdeal_ReferenceIdeal := by
  intro m ρ m' ρ' hpre hagree
  refine ⟨fun c => Cert.KernelIdeal.KValue.result m c, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.ref_eq, (hagree c).1, (hagree c).2]
  show _ = Cert.KernelIdeal.KValue.result m c
  rw [Cert.KernelIdeal.KValue.result_eq]
  exact Cert.Spec.resultWhole_eq_resultTiled _ _ (Cert.Finite.real_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
